-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S512 : Shape := ⟨1, ![512]⟩
abbrev S512x512 : Shape := ⟨2, ![512, 512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512 .f32) (main_arg5 : FVec F S512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S65536x256 .f32) (main_arg1 : FVec F S512x256 .f32) (main_arg2 : FVec F S512 .f32) (main_arg3 : FVec F S512x512 .f32) (main_arg4 : FVec F S512 .f32) (main_arg5 : FVec F S512 .f32) (main_arg6 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S65536x256 : Shape := ⟨2, ![65536, 256]⟩
abbrev S512x256 : Shape := ⟨2, ![512, 256]⟩
abbrev S512 : Shape := ⟨1, ![512]⟩
abbrev S512x512 : Shape := ⟨2, ![512, 512]⟩
abbrev S_ : Shape := ⟨0, ![]⟩
abbrev S1x512 : Shape := ⟨2, ![1, 512]⟩
abbrev S65536x512 : Shape := ⟨2, ![65536, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S256x512 : Shape := ⟨2, ![256, 512]⟩

abbrev nBuf : Space → Nat
  | .hbm => 22
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .bf16⟩
  | .hbm, ⟨11, _⟩ => ⟨S512x256, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S512x512, .bf16⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S65536x512, .f32⟩
  | .local _ .vmem, ⟨0, _⟩ => ⟨S2048x256, .f32⟩
  | .local _ .vmem, ⟨1, _⟩ => ⟨S2048x256, .f32⟩
  | .local _ .vmem, ⟨2, _⟩ => ⟨S512x256, .bf16⟩
  | .local _ .vmem, ⟨3, _⟩ => ⟨S1x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S2048x512, .f32⟩
  | .local _ .vmem, ⟨10, _⟩ => ⟨S2048x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S512x256 : S_.BroadcastsInDim S512x256 (![] : Fin 0 → Fin S512x256.rank)
  bitsLt_bf16_f32 : FTy.bits .bf16 < FTy.bits .f32
  reducesTo_S512x256_S512_d1 : S512x256.ReducesTo [1] S512
  h_S_ : 0 < S_.numel
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  reduces_S2048x512_S2048 : S2048x512.Reduces [1] S2048
  inb_S2048x512_S2048x512_0_0 : ∀ a, (![0, 0] : Fin 2 → Nat) a + S2048x512.size a ≤ S2048x512.size a
  h_S2048x512 : 0 < S2048x512.numel
  dot_S2048x256_S256x512_S2048x512_1_0_0_1_n_n_wf : DotDims.WF S2048x256 S256x512 S2048x512 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S65536x512.size a
  hwx0_8 : ∀ i : grid0.Coords, EltTy.bits .f32 = 32 ∨ (Rect.block (s := S65536x512) S2048x512.size (cc0_transform_8 i) (hinb0_8 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S2048x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S512 : Shape := ⟨1, ![512]⟩
abbrev S512x512 : Shape := ⟨2, ![512, 512]⟩
abbrev S_ : Shape := ⟨0, ![]⟩
abbrev S65536 : Shape := ⟨1, ![65536]⟩
abbrev S65536x1 : Shape := ⟨2, ![65536, 1]⟩
abbrev S65536x512 : Shape := ⟨2, ![65536, 512]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S65536x256, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S512x256, .f32⟩
  | .hbm, ⟨12, _⟩ => ⟨S_, .f32⟩
  | .hbm, ⟨13, _⟩ => ⟨S512, .f32⟩
  | .hbm, ⟨14, _⟩ => ⟨S65536x512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S_, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S1x512, .f32⟩
  | .hbm, ⟨31, _⟩ => ⟨S65536x512, .f32⟩
  | .hbm, ⟨32, _⟩ => ⟨S65536x512, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x512, .f32⟩
  | .hbm, ⟨49, _⟩ => ⟨S65536x512, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x512, .f32⟩
  | .hbm, ⟨55, _⟩ => ⟨S65536x512, .f32⟩
  | .hbm, ⟨56, _⟩ => ⟨S1x512, .f32⟩
  | .hbm, ⟨57, _⟩ => ⟨S65536x512, .f32⟩
  | .hbm, ⟨58, _⟩ => ⟨S65536x512, .f32⟩
  | .hbm, ⟨59, _⟩ => ⟨S1x512, .f32⟩
  | .hbm, ⟨60, _⟩ => ⟨S65536x512, .f32⟩
  | .hbm, ⟨61, _⟩ => ⟨S65536x512, .f32⟩
  | .hbm, ⟨62, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S512x256_S512_d1 : S512x256.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  reducesTo_S65536x512_S65536_d1 : S65536x512.ReducesTo [1] S65536
  bcast_S_S65536x1 : S_.BroadcastsInDim S65536x1 (![] : Fin 0 → Fin S65536x1.rank)
  dot_S65536x256_S512x256_S65536x512_1_1_0_0_n_n_wf : DotDims.WF S65536x256 S512x256 S65536x512 [1] [1] [0] [0] [] []
  dot_S65536x512_S512x512_S65536x512_1_1_0_0_n_n_wf : DotDims.WF S65536x512 S512x512 S65536x512 [1] [1] [0] [0] [] []

variable [Facts₀]

def dot_S65536x256_S512x256_S65536x512_1_1_0_0_n_n : DotDims S65536x256 S512x256 S65536x512 where
  lhsContracting := [1]
  rhsContracting := [1]
  lhsNonContracting := [0]
  rhsNonContracting := [0]
  lhsBatch := []
  rhsBatch := []
  wf := dot_S65536x256_S512x256_S65536x512_1_1_0_0_n_n_wf
def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.Spec.lean ====
/-
  The mathematics of one row of the layer, over the extended reals.

  A row `xr` of 256 inputs is compared with each of 512 centres `c g`: the activation of centre `g` is
  `exp (-(‖xr‖² + ‖c g‖² - 2·⟨xr, c g⟩) · exp (ls g))`, a radial basis function of the squared distance. The 512 activations
  are mixed linearly (`W`, `bm`), normalised over the 512 mixed values (mean, variance, reciprocal square root with a
  stabiliser) and squashed by `tanh` after a scale `γ` and a shift `β`.

  One program forms the squared distance as written above. The other forms `⟨xr, 2·c g⟩ - ‖xr‖² - ‖c g‖²`, scales it, and
  clamps the product at zero from above before the exponential. On finite entries the two arguments of the exponential
  are the same real number `-(Σ (xr k - c g k)²) · exp (ls g)`, which is never positive, so the clamp changes nothing.
  Everything after the activation is the same expression on both sides.
-/
import Idealize.ShloMosaic.PureOps.Ideal
import Mathlib.Analysis.SpecialFunctions.Exp

noncomputable section

namespace Cert.Rbf

open Idealize.ShloMosaic

/-! ## The two spellings of the activation -/

/-- The activation as the squared distance spelt out: `exp (-((‖xr‖² + ‖cg‖²) - two·⟨xr, cg⟩) · exp lsg)`. -/
def actDist (two : EReal) (xr cg : Fin 256 → EReal) (lsg : EReal) : EReal :=
  Ideal.exp ((-(((∑ k : Fin 256, xr k * xr k) + (∑ k : Fin 256, cg k * cg k)) - two * ∑ k : Fin 256, xr k * cg k)) * Ideal.exp lsg)

/-- The activation from prepared operands: a row `dg` (the doubled centre), the centre's squared norm `q` and its scale
    `s`; the scaled value is clamped at `z` from above before the exponential. -/
def actClamp (z : EReal) (xr dg : Fin 256 → EReal) (q s : EReal) : EReal :=
  Ideal.exp (min ((((∑ k : Fin 256, xr k * dg k) - ∑ k : Fin 256, xr k * xr k) - q) * s) z)

/-! ## What follows the activation -/

/-- The linear mix of a row of activations. -/
def mixed (E : Fin 512 → EReal) (W : Fin 512 → Fin 512 → EReal) (bm : Fin 512 → EReal) (w : Fin 512) : EReal :=
  (∑ g : Fin 512, E g * W w g) + bm w

/-- A row minus its mean (the sum divided by `n`). -/
def centred (n : EReal) (u : Fin 512 → EReal) (w : Fin 512) : EReal :=
  u w - Ideal.div (∑ v : Fin 512, u v) n

/-- The normalised row, scaled, shifted and squashed. -/
def squashed (n eps : EReal) (u : Fin 512 → EReal) (γ β : Fin 512 → EReal) (w : Fin 512) : EReal :=
  Ideal.tanh ((centred n u w * Ideal.rsqrt (Ideal.div (∑ v : Fin 512, centred n u v * centred n u v) n + eps)) * γ w + β w)

/-- One output row, from the activation spelt as a squared distance. -/
def rowDist (two n eps : EReal) (xr : Fin 256 → EReal) (c : Fin 512 → Fin 256 → EReal) (ls : Fin 512 → EReal)
    (W : Fin 512 → Fin 512 → EReal) (bm γ β : Fin 512 → EReal) (w : Fin 512) : EReal :=
  squashed n eps (mixed (fun g => actDist two xr (c g) (ls g)) W bm) γ β w

/-- One output row, from the clamped activation over operands prepared from the same centres: the doubled centres, their
    squared norms (summed onto `z`) and the exponentials of the log-scales. -/
def rowClamp (z two n eps : EReal) (xr : Fin 256 → EReal) (c : Fin 512 → Fin 256 → EReal) (ls : Fin 512 → EReal)
    (W : Fin 512 → Fin 512 → EReal) (bm γ β : Fin 512 → EReal) (w : Fin 512) : EReal :=
  squashed n eps (mixed (fun g => actClamp z xr (fun k => two * c g k) (z + ∑ k : Fin 256, c g k * c g k) (Ideal.exp (ls g))) W bm) γ β w

/-! ## The law -/

/-- A finite sum of reals, each read as an extended real, is the sum read as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over the reals: the prepared operands give minus the squared distance. -/
theorem real_dist (a d : Fin 256 → ℝ) :
    (∑ k, a k * (2 * d k)) - (∑ k, a k * a k) - (∑ k, d k * d k) = -(((∑ k, a k * a k) + ∑ k, d k * d k) - 2 * ∑ k, a k * d k) := by
  have h : (∑ k, a k * (2 * d k)) = 2 * ∑ k, a k * d k := by
    rw [Finset.mul_sum]; exact Finset.sum_congr rfl fun k _ => by ring
  rw [h]; ring

/-- Over the reals: the squared distance is a sum of squares, so its negative is not positive. -/
theorem real_dist_nonpos (a d : Fin 256 → ℝ) :
    -(((∑ k, a k * a k) + ∑ k, d k * d k) - 2 * ∑ k, a k * d k) ≤ 0 := by
  have h : ((∑ k, a k * a k) + ∑ k, d k * d k) - 2 * ∑ k, a k * d k = ∑ k, (a k - d k) ^ 2 := by
    rw [Finset.mul_sum, ← Finset.sum_add_distrib, ← Finset.sum_sub_distrib]
    exact Finset.sum_congr rfl fun k _ => by ring
  rw [h, neg_nonpos]
  exact Finset.sum_nonneg fun k _ => sq_nonneg _

/-- On finite entries the clamped activation over the prepared operands is the activation spelt as a squared distance:
    both arguments of the exponential are the real `-(Σ (xr k - cg k)²) · exp lsg ≤ 0`, which the clamp leaves alone. -/
theorem actClamp_eq_actDist (z two : EReal) (hz : z = 0) (htwo : two = ((2 : ℝ) : EReal)) (xr cg : Fin 256 → EReal) (lsg : EReal)
    (hx : ∀ k, ∃ r : ℝ, xr k = (r : EReal)) (hc : ∀ k, ∃ r : ℝ, cg k = (r : EReal)) (hl : ∃ r : ℝ, lsg = (r : EReal)) :
    actClamp z xr (fun k => two * cg k) (z + ∑ k : Fin 256, cg k * cg k) (Ideal.exp lsg) = actDist two xr cg lsg := by
  choose a ha using hx
  choose d hd using hc
  obtain ⟨l, rfl⟩ := hl
  subst hz htwo
  have ex : xr = fun k => (a k : EReal) := funext ha
  have ec : cg = fun k => (d k : EReal) := funext hd
  subst ex ec
  unfold actClamp actDist
  simp only [← EReal.coe_mul, coe_sum, zero_add, Ideal.exp_coe, ← EReal.coe_add, ← EReal.coe_sub, ← EReal.coe_neg]
  rw [real_dist a d, min_eq_left]
  · rfl
  · rw [← EReal.coe_zero, EReal.coe_le_coe_iff]
    exact mul_nonpos_of_nonpos_of_nonneg (real_dist_nonpos a d) (Real.exp_pos l).le

/-- So on finite inputs, centres and log-scales the two spellings of an output row agree. -/
theorem rowClamp_eq_rowDist (z two n eps : EReal) (hz : z = 0) (htwo : two = ((2 : ℝ) : EReal))
    (xr : Fin 256 → EReal) (c : Fin 512 → Fin 256 → EReal) (ls : Fin 512 → EReal)
    (W : Fin 512 → Fin 512 → EReal) (bm γ β : Fin 512 → EReal)
    (hx : ∀ k, ∃ r : ℝ, xr k = (r : EReal)) (hc : ∀ g k, ∃ r : ℝ, c g k = (r : EReal)) (hl : ∀ g, ∃ r : ℝ, ls g = (r : EReal)) :
    rowClamp z two n eps xr c ls W bm γ β = rowDist two n eps xr c ls W bm γ β := by
  unfold rowClamp rowDist
  have h : (fun g => actClamp z xr (fun k => two * c g k) (z + ∑ k : Fin 256, c g k * c g k) (Ideal.exp (ls g)))
      = fun g => actDist two xr (c g) (ls g) :=
    funext fun g => actClamp_eq_actDist z two hz htwo xr (c g) (ls g) hx (hc g) (hl g)
  rw [h]

end Cert.Rbf

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.KernelBlock.lean ====
/-
  One block of the kernel, read as the mathematics of its rows.

  The body's centred, mixed value (`k0_pay2`) is three steps: the clamped radial activation of each row against each
  centre (two subtractions from a product with the transposed doubled centres, a scale, a clamp, an exponential); the
  linear mix of a row's 512 activations (a product with the transposed mixing matrix, plus a bias row); and the
  subtraction of the row's mean. Each step is read here at a row `p` and a column, as the corresponding function of
  `Cert.Rbf`; the block the kernel leaves is then the squashed, normalised row of `Cert.Rbf.squashed` at every index.
-/
import proofs.«163557_j70385924047526_2_alg».proof.Proof.Gen.KernelIdeal.Value
import proofs.«163557_j70385924047526_2_alg».proof.Proof.Spec
import proofs.«163557_j70385924047526_2_alg».proof.Proof.LibPlainMatmul
import proofs.«163557_j70385924047526_2_alg».proof.Proof.LibRowReduce
import proofs.«163557_j70385924047526_2_alg».proof.Proof.LibLayoutIx
import Idealize.ShloMosaic.Lib.ValueLayout
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.SL.Sem
open Idealize.ShloMosaic.ValueIdx

/-- The words the body spells: zero (the clamp), 512 (the row length) and the stabiliser. -/
abbrev zW : EReal := Ideal.ofBits .f32 0x00000000#32
abbrev nW : EReal := Ideal.ofBits .f32 0x44000000#32
abbrev eW : EReal := Ideal.ofBits .f32 0x3727C5AC#32

/-! ## The three steps of the centred value, as vectors -/

/-- The clamped radial activations of a block of rows `P0` against the doubled centres `P1`, their squared norms `P2`
    and scales `P3`. -/
def actV (P0 : FVec Ideal S2048x256 .f32) (P1 : FVec Ideal S512x256 .bf16) (P2 P3 : FVec Ideal S1x512 .f32) : FVec Ideal S2048x512 .f32 :=
  exp (minimumf (mulf (subf (subf
    (matmul dot_S2048x256_S256x512_S2048x512_1_0_0_1_n_n none (truncf .bf16 P0 bitsLt_bf16_f32)
      (transpose S256x512 [1, 0] (shapeCast S512x256 P1 shapeCasts_S512x256_S512x256) transposes_S512x256_p1_0_S256x512)
      (constant S2048x512 .f32 0x00000000#32))
    (broadcastTo S2048x512 (shapeCast S2048x1 (multiReduction .add [1] S2048 (mulf P0 P0) 0x00000000#32 reduces_S2048x256_S2048 (.inl rfl) rfl) shapeCasts_S2048_S2048x1) broadcasts_S2048x1_S2048x512))
    (broadcastTo S2048x512 (shapeCast S1x512 P2 shapeCasts_S1x512_S1x512) broadcasts_S1x512_S2048x512))
    (broadcastTo S2048x512 (shapeCast S1x512 P3 shapeCasts_S1x512_S1x512) broadcasts_S1x512_S2048x512))
    (broadcast S2048x512 (Scalar.ofBits .f32 0x00000000#32)))

/-- The linear mix of a block of activations `A` with the mixing matrix `P4` and the bias row `P5`. -/
def mixV (A : FVec Ideal S2048x512 .f32) (P4 : FVec Ideal S512x512 .bf16) (P5 : FVec Ideal S1x512 .f32) : FVec Ideal S2048x512 .f32 :=
  addf
    (matmul dot_S2048x512_S512x512_S2048x512_1_0_0_1_n_n none (truncf .bf16 A bitsLt_bf16_f32)
      (transpose S512x512 [1, 0] (shapeCast S512x512 P4 shapeCasts_S512x512_S512x512) transposes_S512x512_p1_0_S512x512)
      (constant S2048x512 .f32 0x00000000#32))
    (broadcastTo S2048x512 (shapeCast S1x512 P5 shapeCasts_S1x512_S1x512) broadcasts_S1x512_S2048x512)

/-- A block minus each row's mean. -/
def centV (U : FVec Ideal S2048x512 .f32) : FVec Ideal S2048x512 .f32 :=
  subf U (broadcastTo S2048x512
    (divf (shapeCast S2048x1 (multiReduction .add [1] S2048 U 0x00000000#32 reduces_S2048x512_S2048 (.inl rfl) rfl) shapeCasts_S2048_S2048x1)
      (broadcast S2048x1 (Scalar.ofBits .f32 0x44000000#32)))
    broadcasts_S2048x1_S2048x512)

/-- The body's centred value is those three steps. -/
theorem pay2_eq (P0 : Vec Ideal S2048x256 .f32) (P1 : Vec Ideal S512x256 .bf16) (P2 P3 : Vec Ideal S1x512 .f32)
    (P4 : Vec Ideal S512x512 .bf16) (P5 : Vec Ideal S1x512 .f32) :
    k0_pay2 P0 P1 P2 P3 P4 P5 = centV (mixV (actV P0 P1 P2 P3) P4 P5) := rfl

/-! ## Each step at a row and a column -/

/-- A `[1, 512]` row cast to itself and repeated down the block reads the row at the column. -/
theorem rowBcast_apply (v : FVec Ideal S1x512 .f32) (p : Fin 2048) (w : Fin 512) :
    broadcastTo S2048x512 (shapeCast S1x512 v shapeCasts_S1x512_S1x512) broadcasts_S1x512_S2048x512 (ix2 p w) = v (ix2 (0 : Fin 1) w) :=
  (broadcastTo_1b_ab_apply _ broadcasts_S1x512_S2048x512 p w).trans (congrFun (shapeCast_self v shapeCasts_S1x512_S1x512) _)

/-- The activation of row `p` against centre `g`. -/
theorem actV_apply (P0 : FVec Ideal S2048x256 .f32) (P1 : FVec Ideal S512x256 .bf16) (P2 P3 : FVec Ideal S1x512 .f32)
    (p : Fin 2048) (g : Fin 512) :
    actV P0 P1 P2 P3 (ix2 p g)
      = Rbf.actClamp zW (fun k => P0 (ix2 p k)) (fun k => P1 (ix2 g k)) (P2 (ix2 (0 : Fin 1) g)) (P3 (ix2 (0 : Fin 1) g)) := by
  have hmm : (matmul dot_S2048x256_S256x512_S2048x512_1_0_0_1_n_n none (truncf .bf16 P0 bitsLt_bf16_f32)
      (transpose S256x512 [1, 0] (shapeCast S512x256 P1 shapeCasts_S512x256_S512x256) transposes_S512x256_p1_0_S256x512)
      (constant S2048x512 .f32 0x00000000#32)) (ix2 p g) = ∑ k : Fin 256, P0 (ix2 p k) * P1 (ix2 g k) := by
    refine (PlainMatmul.matmul_zero_apply dot_S2048x256_S256x512_S2048x512_1_0_0_1_n_n_wf none _ _ p g).trans ?_
    refine Finset.sum_congr rfl fun k _ => ?_
    refine congrArg (P0 (ix2 p k) * ·) ?_
    exact (LayoutIx.transpose_two transposes_S512x256_p1_0_S256x512 _ k g).trans
      (congrFun (shapeCast_self P1 shapeCasts_S512x256_S512x256) _)
  have hxs : (broadcastTo S2048x512 (shapeCast S2048x1 (multiReduction .add [1] S2048 (mulf P0 P0) 0x00000000#32 reduces_S2048x256_S2048 (.inl rfl) rfl) shapeCasts_S2048_S2048x1) broadcasts_S2048x1_S2048x512) (ix2 p g)
      = ∑ k : Fin 256, P0 (ix2 p k) * P0 (ix2 p k) :=
    (RowReduce.keepdims_apply _ shapeCasts_S2048_S2048x1 broadcasts_S2048x1_S2048x512 p g).trans
      (RowReduce.rowSum_apply (mulf P0 P0) 0x00000000#32 reduces_S2048x256_S2048 (.inl rfl) rfl p)
  exact congrArg Ideal.exp (congrArg₂ min (congrArg₂ (· * ·) (congrArg₂ (· - ·) (congrArg₂ (· - ·) hmm hxs)
    (rowBcast_apply P2 p g)) (rowBcast_apply P3 p g)) rfl)

/-- The mix of row `p` at output `w`. -/
theorem mixV_apply (A : FVec Ideal S2048x512 .f32) (P4 : FVec Ideal S512x512 .bf16) (P5 : FVec Ideal S1x512 .f32)
    (p : Fin 2048) (w : Fin 512) :
    mixV A P4 P5 (ix2 p w) = Rbf.mixed (fun g => A (ix2 p g)) (fun w g => P4 (ix2 w g)) (fun w => P5 (ix2 (0 : Fin 1) w)) w := by
  have hmm : (matmul dot_S2048x512_S512x512_S2048x512_1_0_0_1_n_n none (truncf .bf16 A bitsLt_bf16_f32)
      (transpose S512x512 [1, 0] (shapeCast S512x512 P4 shapeCasts_S512x512_S512x512) transposes_S512x512_p1_0_S512x512)
      (constant S2048x512 .f32 0x00000000#32)) (ix2 p w) = ∑ g : Fin 512, A (ix2 p g) * P4 (ix2 w g) := by
    refine (PlainMatmul.matmul_zero_apply dot_S2048x512_S512x512_S2048x512_1_0_0_1_n_n_wf none _ _ p w).trans ?_
    refine Finset.sum_congr rfl fun g _ => ?_
    refine congrArg (A (ix2 p g) * ·) ?_
    exact (LayoutIx.transpose_two transposes_S512x512_p1_0_S512x512 _ g w).trans
      (congrFun (shapeCast_self P4 shapeCasts_S512x512_S512x512) _)
  exact congrArg₂ (· + ·) hmm (rowBcast_apply P5 p w)

/-- The mean of row `p`, kept as a column and repeated over the row. -/
theorem meanBcast_apply (U : FVec Ideal S2048x512 .f32) (p : Fin 2048) (w : Fin 512) :
    (broadcastTo S2048x512
      (divf (shapeCast S2048x1 (multiReduction .add [1] S2048 U 0x00000000#32 reduces_S2048x512_S2048 (.inl rfl) rfl) shapeCasts_S2048_S2048x1)
        (broadcast S2048x1 (Scalar.ofBits .f32 0x44000000#32)))
      broadcasts_S2048x1_S2048x512) (ix2 p w) = Ideal.div (∑ v : Fin 512, U (ix2 p v)) nW := by
  refine (RowReduce.broadcastTo_a1_ab_apply _ broadcasts_S2048x1_S2048x512 p w).trans ?_
  refine congrArg (Ideal.div · nW) ?_
  exact (RowReduce.shapeCast_a_a1_apply _ shapeCasts_S2048_S2048x1 p 0).trans
    (RowReduce.rowSum_apply U 0x00000000#32 reduces_S2048x512_S2048 (.inl rfl) rfl p)

/-- Row `p` minus its mean, at `w`. -/
theorem centV_apply (U : FVec Ideal S2048x512 .f32) (p : Fin 2048) (w : Fin 512) :
    centV U (ix2 p w) = Rbf.centred nW (fun v => U (ix2 p v)) w :=
  congrArg (U (ix2 p w) - ·) (meanBcast_apply U p w)

/-- The body's centred value at row `p` and column `w`: the centred mix of the row's clamped activations. -/
theorem pay2_apply (P0 : Vec Ideal S2048x256 .f32) (P1 : Vec Ideal S512x256 .bf16) (P2 P3 : Vec Ideal S1x512 .f32)
    (P4 : Vec Ideal S512x512 .bf16) (P5 : Vec Ideal S1x512 .f32) (p : Fin 2048) (w : Fin 512) :
    k0_pay2 P0 P1 P2 P3 P4 P5 (ix2 p w)
      = Rbf.centred nW (Rbf.mixed (fun g => Rbf.actClamp zW (fun k => P0 (ix2 p k)) (fun k => P1 (ix2 g k)) (P2 (ix2 (0 : Fin 1) g)) (P3 (ix2 (0 : Fin 1) g)))
          (fun w g => P4 (ix2 w g)) (fun w => P5 (ix2 (0 : Fin 1) w))) w := by
  rw [pay2_eq, centV_apply]
  refine congrArg (fun u => Rbf.centred nW u w) (funext fun v => ?_)
  rw [mixV_apply]
  refine congrArg (fun E => Rbf.mixed E (fun w g => P4 (ix2 w g)) (fun w => P5 (ix2 (0 : Fin 1) w)) v) (funext fun g => ?_)
  exact actV_apply P0 P1 P2 P3 p g

/-! ## The block the body leaves -/

/-- One row of the block, as the mathematics: the squashed, normalised mix of the row's clamped activations. -/
abbrev blockRow (P0 : Vec Ideal S2048x256 .f32) (P1 : Vec Ideal S512x256 .bf16) (P2 P3 : Vec Ideal S1x512 .f32)
    (P4 : Vec Ideal S512x512 .bf16) (P5 P6 P7 : Vec Ideal S1x512 .f32) (p : Fin 2048) (q : Fin 512) : EReal :=
  Rbf.squashed nW eW
    (Rbf.mixed (fun g => Rbf.actClamp zW (fun k => P0 (ix2 p k)) (fun k => P1 (ix2 g k)) (P2 (ix2 (0 : Fin 1) g)) (P3 (ix2 (0 : Fin 1) g)))
      (fun w g => P4 (ix2 w g)) (fun w => P5 (ix2 (0 : Fin 1) w)))
    (fun w => P6 (ix2 (0 : Fin 1) w)) (fun w => P7 (ix2 (0 : Fin 1) w)) q

/-- The generated index-by-index form of the block, at row `p` and column `q`. -/
theorem E8_apply (P0 : Vec Ideal S2048x256 .f32) (P1 : Vec Ideal S512x256 .bf16) (P2 P3 : Vec Ideal S1x512 .f32)
    (P4 : Vec Ideal S512x512 .bf16) (P5 P6 P7 : Vec Ideal S1x512 .f32) (p : Fin 2048) (q : Fin 512) :
    Value.E8 P0 P1 P2 P3 P4 P5 P6 P7 (ix2 p q) = blockRow P0 P1 P2 P3 P4 P5 P6 P7 p q := by
  have i0 : Value.ix8_0 (ix2 p q) = ix2 p q := funext fun a => Fin.ext (by match a with | ⟨0, _⟩ => rfl | ⟨1, _⟩ => rfl)
  have i1 : Value.ix8_1 (ix2 p q) = ix1 p := funext fun a => Fin.ext (by match a with | ⟨0, _⟩ => rfl)
  have i2 : Value.ix8_2 (ix2 p q) = ix2 (0 : Fin 1) q := funext fun a => Fin.ext (by match a with | ⟨0, _⟩ => rfl | ⟨1, _⟩ => rfl)
  have i3 : Value.ix8_3 (ix2 p q) = ix2 (0 : Fin 1) q := funext fun a => Fin.ext (by match a with | ⟨0, _⟩ => rfl | ⟨1, _⟩ => rfl)
  have hc : k0_pay2 P0 P1 P2 P3 P4 P5 (Value.ix8_0 (ix2 p q)) = _ :=
    (congrArg (k0_pay2 P0 P1 P2 P3 P4 P5) i0).trans (pay2_apply P0 P1 P2 P3 P4 P5 p q)
  have hs : (multiReduction .add [1] S2048 (mulf (k0_pay2 P0 P1 P2 P3 P4 P5) (k0_pay2 P0 P1 P2 P3 P4 P5)) 0x00000000#32 reduces_S2048x512_S2048 (.inl rfl) rfl) (Value.ix8_1 (ix2 p q))
      = ∑ v : Fin 512, _ * _ :=
    (congrArg (multiReduction .add [1] S2048 (mulf (k0_pay2 P0 P1 P2 P3 P4 P5) (k0_pay2 P0 P1 P2 P3 P4 P5)) 0x00000000#32 reduces_S2048x512_S2048 (.inl rfl) rfl) i1).trans
      ((RowReduce.rowSum_apply _ 0x00000000#32 reduces_S2048x512_S2048 (.inl rfl) rfl p).trans
        (Finset.sum_congr rfl fun v _ => congrArg₂ (· * ·) (pay2_apply P0 P1 P2 P3 P4 P5 p v) (pay2_apply P0 P1 P2 P3 P4 P5 p v)))
  exact congrArg Ideal.tanh (congrArg₂ (· + ·) (congrArg₂ (· * ·) (congrArg₂ (· * ·) hc
    (congrArg Ideal.rsqrt (congrArg (· + eW) (congrArg (Ideal.div · nW) hs)))) (congrArg P6 i2)) (congrArg P7 i3))

/-- A load through the rectangle that starts at the origin and spans the whole buffer is the buffer. -/
theorem hz : (![0, 0] : Fin 2 → Nat) = fun _ => 0 := funext fun a => by fin_cases a <;> rfl

/-- What the body leaves in the output's buffer, from the contents of the eight input buffers, at row `p` and column `q`. -/
theorem out_apply (x0 : Vec Ideal S2048x256 .f32) (x1 : Vec Ideal S512x256 .bf16) (x2 x3 : Vec Ideal S1x512 .f32)
    (x4 : Vec Ideal S512x512 .bf16) (x5 x6 x7 : Vec Ideal S1x512 .f32) (p : Fin 2048) (q : Fin 512) :
    out0_8 x0 x1 x2 x3 x4 x5 x6 x7 (ix2 p q) = blockRow x0 x1 x2 x3 x4 x5 x6 x7 p q := by
  unfold out0_8
  rw [Value.canon8_eq]
  simp only [View.ld_unit_zero (S := S2048x256) hz, View.ld_unit_zero (S := S512x256) hz,
    View.ld_unit_zero (S := S1x512) hz, View.ld_unit_zero (S := S512x512) hz]
  exact E8_apply x0 x1 x2 x3 x4 x5 x6 x7 p q

end Cert.KernelIdeal.Block

end
-- ==== Proof.KernelArray.lean ====
/-
  The kernel's result array as one function of the argument arrays.

  The region's eight operands are the input rows and seven arrays the program prepares before the region from the
  centres, the log-scales and the remaining arguments: the doubled centres, the centres' squared norms as a row, the
  exponentials of the log-scales as a row, the mixing matrix, and the bias, scale and shift as rows. Grid point `t` works
  on input rows `2048·t … 2048·t + 2047` and on the whole of every other operand, and writes back rows
  `2048·t … 2048·t + 2047` of the result. So row `b` of the result is `Cert.Rbf.rowClamp` of row `b` of the inputs, and
  the 32 blocks fill the 65536 rows.
-/
import proofs.«163557_j70385924047526_2_alg».proof.Proof.KernelBlock
import Idealize.ShloMosaic.Lib.StableHlo.Run
import Idealize.ShloMosaic.Lib.Pipeline.Value
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Block (zW nW eW)

/-- The word the host multiplies the centres by: two. -/
abbrev twoW : EReal := Ideal.ofBits .f32 0x40000000#32

/-! ## One row of the result, and the result array -/

/-- Row `b` of the result at column `w`, from the seven argument arrays. -/
def outRow (A0 : S65536x256.Idx → EReal) (A1 : S512x256.Idx → EReal) (A2 : S512.Idx → EReal) (A3 : S512x512.Idx → EReal)
    (A4 A5 A6 : S512.Idx → EReal) (b : Fin 65536) (w : Fin 512) : EReal :=
  Rbf.rowClamp zW twoW nW eW (fun k => A0 (ix2 b k)) (fun g k => A1 (ix2 g k)) (fun g => A2 (ix1 g))
    (fun w g => A3 (ix2 w g)) (fun w => A4 (ix1 w)) (fun w => A5 (ix1 w)) (fun w => A6 (ix1 w)) w

/-- The result array, index by index. -/
def outArr (A0 : S65536x256.Idx → EReal) (A1 : S512x256.Idx → EReal) (A2 : S512.Idx → EReal) (A3 : S512x512.Idx → EReal)
    (A4 A5 A6 : S512.Idx → EReal) : S65536x512.Idx → EReal :=
  fun i => outRow A0 A1 A2 A3 A4 A5 A6 ⟨(i 0).val, (i 0).isLt⟩ ⟨(i 1).val, (i 1).isLt⟩

theorem outArr_ix2 (A0 : S65536x256.Idx → EReal) (A1 : S512x256.Idx → EReal) (A2 : S512.Idx → EReal) (A3 : S512x512.Idx → EReal)
    (A4 A5 A6 : S512.Idx → EReal) (b : Fin 65536) (w : Fin 512) :
    outArr A0 A1 A2 A3 A4 A5 A6 (ix2 b w) = outRow A0 A1 A2 A3 A4 A5 A6 b w := rfl

/-- A block of the body's output is rows of `outRow`, when its eight input blocks are the corresponding rows of the
    inputs and the prepared operands (stated over variables; `r` says which array row a block row is). -/
theorem block_eq (x0 : Vec Ideal S2048x256 .f32) (x1 : Vec Ideal S512x256 .bf16) (x2 x3 : Vec Ideal S1x512 .f32)
    (x4 : Vec Ideal S512x512 .bf16) (x5 x6 x7 : Vec Ideal S1x512 .f32)
    (A0 : S65536x256.Idx → EReal) (A1 : S512x256.Idx → EReal) (A2 : S512.Idx → EReal) (A3 : S512x512.Idx → EReal)
    (A4 A5 A6 : S512.Idx → EReal) (r : Fin 2048 → Fin 65536)
    (h0 : ∀ p k, x0 (ix2 p k) = A0 (ix2 (r p) k))
    (h1 : ∀ g k, x1 (ix2 g k) = twoW * A1 (ix2 g k))
    (h2 : ∀ g, x2 (ix2 (0 : Fin 1) g) = zW + ∑ k : Fin 256, A1 (ix2 g k) * A1 (ix2 g k))
    (h3 : ∀ g, x3 (ix2 (0 : Fin 1) g) = Ideal.exp (A2 (ix1 g)))
    (h4 : ∀ w g, x4 (ix2 w g) = A3 (ix2 w g))
    (h5 : ∀ w, x5 (ix2 (0 : Fin 1) w) = A4 (ix1 w))
    (h6 : ∀ w, x6 (ix2 (0 : Fin 1) w) = A5 (ix1 w))
    (h7 : ∀ w, x7 (ix2 (0 : Fin 1) w) = A6 (ix1 w))
    (p : Fin 2048) (q : Fin 512) :
    out0_8 x0 x1 x2 x3 x4 x5 x6 x7 (ix2 p q) = outRow A0 A1 A2 A3 A4 A5 A6 (r p) q := by
  rw [Block.out_apply]
  unfold outRow Rbf.rowClamp
  dsimp only [Block.blockRow]
  simp only [h0, h1, h2, h3, h4, h5, h6, h7]

/-! ## The operands the program prepares before the region -/

variable (m : (ℓ : Loc nD τ sig) → Buf (Elt Ideal) ℓ) (ρ : Dev nD → PrngReg)

/-- The seven argument arrays as launched, on core `c`. -/
abbrev a0 (c : Dev nD) : FVec Ideal S65536x256 .f32 := m ((c : Thread nD τ).loc main_arg0)
abbrev a1 (c : Dev nD) : FVec Ideal S512x256 .f32 := m ((c : Thread nD τ).loc main_arg1)
abbrev a2 (c : Dev nD) : FVec Ideal S512 .f32 := m ((c : Thread nD τ).loc main_arg2)
abbrev a3 (c : Dev nD) : FVec Ideal S512x512 .f32 := m ((c : Thread nD τ).loc main_arg3)
abbrev a4 (c : Dev nD) : FVec Ideal S512 .f32 := m ((c : Thread nD τ).loc main_arg4)
abbrev a5 (c : Dev nD) : FVec Ideal S512 .f32 := m ((c : Thread nD τ).loc main_arg5)
abbrev a6 (c : Dev nD) : FVec Ideal S512 .f32 := m ((c : Thread nD τ).loc main_arg6)

/-- The host's sum along the rows of a `[512, 256]` array, at row `g`: the initial value plus the row's entries. -/
theorem hostRowSum (y0 : S512x256.Idx → EReal) (init : S_.Idx → EReal) (g : Fin 512) :
    Host.reduceAdd (F := Ideal) (φ := .f32) y0 init reducesTo_S512x256_S512_d1 h_S_ (ix1 g)
      = init (Shape.Idx.first h_S_) + ∑ k : Fin 256, y0 (ix2 g k) := by
  simp only [Host.reduceAdd, Ideal.hostReduceAdd_def]
  rw [Ideal.hostReduceAdd_single reducesTo_S512x256_S512_d1 (by decide)]
  refine congrArg (_ + ·) (Finset.sum_congr rfl fun k _ => ?_)
  exact congrArg y0 (funext fun a => Fin.ext (by match a with | ⟨0, _⟩ => rfl | ⟨1, _⟩ => rfl))

/-- The doubled centres. -/
theorem doubled_apply (c : Dev nD) (g : Fin 512) (k : Fin 256) :
    V m c main_v2 (ix2 g k) = twoW * a1 m c (ix2 g k) := by
  have e : (V m c main_v2 : S512x256.Idx → EReal) = truncf .bf16 (mulf (broadcastInDim S512x256 ![] bcast_S_S512x256
      (constant (F := Ideal) S_ .f32 0x40000000#32)) (a1 m c)) bitsLt_bf16_f32 := by
    dsimp only [Gen.V, Gen.hostOps0]; after_results <;> rfl
  exact (congrFun e (ix2 g k)).trans rfl

/-- The centres' squared norms, as a row. -/
theorem sqnorm_apply (c : Dev nD) (g : Fin 512) :
    V m c main_v5 (ix2 (0 : Fin 1) g)
      = zW + ∑ k : Fin 256, a1 m c (ix2 g k) * a1 m c (ix2 g k) := by
  have e : (V m c main_v5 : S1x512.Idx → EReal) = shapeCast S1x512 (Host.reduceAdd (F := Ideal) (φ := .f32)
      (mulf (a1 m c) (a1 m c)) (constant (F := Ideal) S_ .f32 0x00000000#32)
      reducesTo_S512x256_S512_d1 h_S_) shapeCasts_S512_S1x512 := by
    dsimp only [Gen.V, Gen.hostOps0]; after_results <;> rfl
  refine (congrFun e (ix2 (0 : Fin 1) g)).trans ?_
  refine (shapeCast_a_1a_apply _ shapeCasts_S512_S1x512 0 g).trans ?_
  exact (hostRowSum _ _ g).trans rfl

/-- The exponentials of the log-scales, as a row. -/
theorem scale_apply (c : Dev nD) (g : Fin 512) :
    V m c main_v7 (ix2 (0 : Fin 1) g) = Ideal.exp (a2 m c (ix1 g)) := by
  have e : (V m c main_v7 : S1x512.Idx → EReal) = shapeCast S1x512 (Host.exp (F := Ideal) (φ := .f32) (a2 m c)) shapeCasts_S512_S1x512 := by
    dsimp only [Gen.V, Gen.hostOps0]; after_results <;> rfl
  refine (congrFun e (ix2 (0 : Fin 1) g)).trans ?_
  exact (shapeCast_a_1a_apply _ shapeCasts_S512_S1x512 0 g).trans rfl

/-- The mixing matrix. -/
theorem mixw_apply (c : Dev nD) (w g : Fin 512) :
    V m c main_v8 (ix2 w g) = a3 m c (ix2 w g) := by
  have e : (V m c main_v8 : S512x512.Idx → EReal) = truncf .bf16 (a3 m c) bitsLt_bf16_f32 := by
    dsimp only [Gen.V, Gen.hostOps0]; after_results <;> rfl
  exact (congrFun e (ix2 w g)).trans rfl

/-- The bias, as a row. -/
theorem bias_apply (c : Dev nD) (w : Fin 512) :
    V m c main_v9 (ix2 (0 : Fin 1) w) = a4 m c (ix1 w) := by
  have e : (V m c main_v9 : S1x512.Idx → EReal) = shapeCast S1x512 (a4 m c) shapeCasts_S512_S1x512 := by
    dsimp only [Gen.V, Gen.hostOps0]; after_results <;> rfl
  refine (congrFun e (ix2 (0 : Fin 1) w)).trans ?_
  exact shapeCast_a_1a_apply _ shapeCasts_S512_S1x512 0 w

/-- The scale of the normalised value, as a row. -/
theorem gamma_apply (c : Dev nD) (w : Fin 512) :
    V m c main_v10 (ix2 (0 : Fin 1) w) = a5 m c (ix1 w) := by
  have e : (V m c main_v10 : S1x512.Idx → EReal) = shapeCast S1x512 (a5 m c) shapeCasts_S512_S1x512 := by
    dsimp only [Gen.V, Gen.hostOps0]; after_results <;> rfl
  refine (congrFun e (ix2 (0 : Fin 1) w)).trans ?_
  exact shapeCast_a_1a_apply _ shapeCasts_S512_S1x512 0 w

/-- The shift of the normalised value, as a row. -/
theorem beta_apply (c : Dev nD) (w : Fin 512) :
    V m c main_v11 (ix2 (0 : Fin 1) w) = a6 m c (ix1 w) := by
  have e : (V m c main_v11 : S1x512.Idx → EReal) = shapeCast S1x512 (a6 m c) shapeCasts_S512_S1x512 := by
    dsimp only [Gen.V, Gen.hostOps0]; after_results <;> rfl
  refine (congrFun e (ix2 (0 : Fin 1) w)).trans ?_
  exact shapeCast_a_1a_apply _ shapeCasts_S512_S1x512 0 w

/-! ## Where a block sits in its array -/

/-- The index maps, decided over the 32 grid points: the input rows and the result move with the point along the rows;
    every other operand stays at the origin. -/
theorem idx_facts : ∀ t : Fin cfg0.N,
    (win0_0.index t (0 : Fin 2) = t.val ∧ win0_0.index t (1 : Fin 2) = 0)
    ∧ (win0_8.index t (0 : Fin 2) = t.val ∧ win0_8.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The array row that row `p` of point `t`'s block is. -/
def row (t : Fin cfg0.N) (p : Fin 2048) : Fin 65536 :=
  ⟨t.val * 2048 + p.val, by
    have ht : t.val < 32 := lt_of_lt_of_eq t.isLt N_0
    have hp := p.isLt
    omega⟩

theorem emb0 (t : Fin cfg0.N) (p : Fin 2048) (k : Fin 256) :
    ((cfg0.win 0).blk t).view.emb (ix2 p k) = ix2 (row t p) k := by
  obtain ⟨⟨e0, e1⟩, -⟩ := idx_facts t
  funext a; apply Fin.ext
  match a with
  | ⟨0, _⟩ => show win0_0.index t (0 : Fin 2) * 2048 + 1 * p.val = t.val * 2048 + p.val; omega
  | ⟨1, _⟩ => show win0_0.index t (1 : Fin 2) * 256 + 1 * k.val = k.val; omega

theorem emb8 (t : Fin cfg0.N) (p : Fin 2048) (q : Fin 512) :
    ((cfg0.win 8).blk t).view.emb (ix2 p q) = ix2 (row t p) q := by
  obtain ⟨-, ⟨e0, e1⟩, -⟩ := idx_facts t
  funext a; apply Fin.ext
  match a with
  | ⟨0, _⟩ => show win0_8.index t (0 : Fin 2) * 2048 + 1 * p.val = t.val * 2048 + p.val; omega
  | ⟨1, _⟩ => show win0_8.index t (1 : Fin 2) * 512 + 1 * q.val = q.val; omega

theorem emb1 (t : Fin cfg0.N) (g : Fin 512) (k : Fin 256) : ((cfg0.win 1).blk t).view.emb (ix2 g k) = ix2 g k := by
  obtain ⟨-, -, ⟨e0, e1⟩, -⟩ := idx_facts t
  funext a; apply Fin.ext
  match a with
  | ⟨0, _⟩ => show win0_1.index t (0 : Fin 2) * 512 + 1 * g.val = g.val; omega
  | ⟨1, _⟩ => show win0_1.index t (1 : Fin 2) * 256 + 1 * k.val = k.val; omega

theorem emb2 (t : Fin cfg0.N) (u : Fin 1) (g : Fin 512) : ((cfg0.win 2).blk t).view.emb (ix2 u g) = ix2 u g := by
  obtain ⟨-, -, -, ⟨e0, e1⟩, -⟩ := idx_facts t
  funext a; apply Fin.ext
  match a with
  | ⟨0, _⟩ => show win0_2.index t (0 : Fin 2) * 1 + 1 * u.val = u.val; omega
  | ⟨1, _⟩ => show win0_2.index t (1 : Fin 2) * 512 + 1 * g.val = g.val; omega

theorem emb3 (t : Fin cfg0.N) (u : Fin 1) (g : Fin 512) : ((cfg0.win 3).blk t).view.emb (ix2 u g) = ix2 u g := by
  obtain ⟨-, -, -, -, ⟨e0, e1⟩, -⟩ := idx_facts t
  funext a; apply Fin.ext
  match a with
  | ⟨0, _⟩ => show win0_3.index t (0 : Fin 2) * 1 + 1 * u.val = u.val; omega
  | ⟨1, _⟩ => show win0_3.index t (1 : Fin 2) * 512 + 1 * g.val = g.val; omega

theorem emb4 (t : Fin cfg0.N) (w g : Fin 512) : ((cfg0.win 4).blk t).view.emb (ix2 w g) = ix2 w g := by
  obtain ⟨-, -, -, -, -, ⟨e0, e1⟩, -⟩ := idx_facts t
  funext a; apply Fin.ext
  match a with
  | ⟨0, _⟩ => show win0_4.index t (0 : Fin 2) * 512 + 1 * w.val = w.val; omega
  | ⟨1, _⟩ => show win0_4.index t (1 : Fin 2) * 512 + 1 * g.val = g.val; omega

theorem emb5 (t : Fin cfg0.N) (u : Fin 1) (g : Fin 512) : ((cfg0.win 5).blk t).view.emb (ix2 u g) = ix2 u g := by
  obtain ⟨-, -, -, -, -, -, ⟨e0, e1⟩, -⟩ := idx_facts t
  funext a; apply Fin.ext
  match a with
  | ⟨0, _⟩ => show win0_5.index t (0 : Fin 2) * 1 + 1 * u.val = u.val; omega
  | ⟨1, _⟩ => show win0_5.index t (1 : Fin 2) * 512 + 1 * g.val = g.val; omega

theorem emb6 (t : Fin cfg0.N) (u : Fin 1) (g : Fin 512) : ((cfg0.win 6).blk t).view.emb (ix2 u g) = ix2 u g := by
  obtain ⟨-, -, -, -, -, -, -, ⟨e0, e1⟩, -⟩ := idx_facts t
  funext a; apply Fin.ext
  match a with
  | ⟨0, _⟩ => show win0_6.index t (0 : Fin 2) * 1 + 1 * u.val = u.val; omega
  | ⟨1, _⟩ => show win0_6.index t (1 : Fin 2) * 512 + 1 * g.val = g.val; omega

theorem emb7 (t : Fin cfg0.N) (u : Fin 1) (g : Fin 512) : ((cfg0.win 7).blk t).view.emb (ix2 u g) = ix2 u g := by
  obtain ⟨-, -, -, -, -, -, -, -, e0, e1⟩ := idx_facts t
  funext a; apply Fin.ext
  match a with
  | ⟨0, _⟩ => show win0_7.index t (0 : Fin 2) * 1 + 1 * u.val = u.val; omega
  | ⟨1, _⟩ => show win0_7.index t (1 : Fin 2) * 512 + 1 * g.val = g.val; omega

/-! ## What a point writes back, the cover, and the run -/

/-- The result array of the kernel, from the argument arrays as launched. -/
abbrev result (c : Dev nD) : S65536x512.Idx → EReal :=
  outArr (a0 m c) (a1 m c) (a2 m c) (a3 m c) (a4 m c) (a5 m c) (a6 m c)

/-- WHAT POINT `t` WRITES BACK is block `t` of the result array. -/
theorem flushed_eq (c : Dev nD) (t : Fin cfg0.N) :
    (dats m 0 c).flushed 8 t = ((cfg0.win 8).blk t).view.read (Elt Ideal) (result m c) := by
  rw [Value.flushed8]
  funext y
  obtain ⟨p, q, rfl⟩ : ∃ (p : Fin 2048) (q : Fin 512), y = ix2 p q := ⟨y 0, y 1, eq_ix2 (n0 := 2048) (n1 := 512) y⟩
  show out0_8 (iblk m c 0 t) (iblk m c 1 t) (iblk m c 2 t) (iblk m c 3 t) (iblk m c 4 t) (iblk m c 5 t) (iblk m c 6 t) (iblk m c 7 t) (ix2 p q)
    = outArr (a0 m c) (a1 m c) (a2 m c) (a3 m c) (a4 m c) (a5 m c) (a6 m c) (((cfg0.win 8).blk t).view.emb (ix2 p q))
  rw [emb8, outArr_ix2]
  refine block_eq (iblk m c 0 t) (iblk m c 1 t) (iblk m c 2 t) (iblk m c 3 t) (iblk m c 4 t) (iblk m c 5 t) (iblk m c 6 t) (iblk m c 7 t)
    (a0 m c) (a1 m c) (a2 m c) (a3 m c) (a4 m c) (a5 m c) (a6 m c) (row t) ?_ ?_ ?_ ?_ ?_ ?_ ?_ ?_ p q
  · intro p k
    show V m c main_arg0 (((cfg0.win 0).blk t).view.emb (ix2 p k)) = _
    rw [emb0, V_main_arg0]
  · intro g k
    show V m c main_v2 (((cfg0.win 1).blk t).view.emb (ix2 g k)) = _
    rw [emb1, doubled_apply]
  · intro g
    show V m c main_v5 (((cfg0.win 2).blk t).view.emb (ix2 (0 : Fin 1) g)) = _
    rw [emb2, sqnorm_apply]
  · intro g
    show V m c main_v7 (((cfg0.win 3).blk t).view.emb (ix2 (0 : Fin 1) g)) = _
    rw [emb3, scale_apply]
  · intro w g
    show V m c main_v8 (((cfg0.win 4).blk t).view.emb (ix2 w g)) = _
    rw [emb4, mixw_apply]
  · intro w
    show V m c main_v9 (((cfg0.win 5).blk t).view.emb (ix2 (0 : Fin 1) w)) = _
    rw [emb5, bias_apply]
  · intro w
    show V m c main_v10 (((cfg0.win 6).blk t).view.emb (ix2 (0 : Fin 1) w)) = _
    rw [emb6, gamma_apply]
  · intro w
    show V m c main_v11 (((cfg0.win 7).blk t).view.emb (ix2 (0 : Fin 1) w)) = _
    rw [emb7, beta_apply]

/-- An index of the result array is in point `t`'s block iff each coordinate is in the block's range on its axis. -/
theorem mem_blk (t : Fin cfg0.N) (i : S65536x512.Idx) :
    i ∈ ((cfg0.win 8).blk t).view.set ↔ ∀ a : Fin 2, win0_8.index t a * S2048x512.size a ≤ (i a).val ∧ (i a).val < win0_8.index t a * S2048x512.size a + S2048x512.size a := by
  show i ∈ ((View.whole main_v12).slice (win0_8.rect t)).set ↔ _
  rw [View.set_slice_whole, Rect.mem_set_unit]
  exact Iff.rfl

/-- Every block of rows is some point's. -/
theorem idx_onto : ∀ q0 : Fin 32, ∃ t : Fin cfg0.N, win0_8.index t = ![q0.val, 0] :=
  (by decide +kernel : ∀ q0 : Fin 32, ∃ t : Fin grid0.N, win0_8.index t = ![q0.val, 0])

/-- THE COVER: row `r` of the result is in the block of point `r / 2048`. -/
theorem cover (i : S65536x512.Idx) : ∃ t : Fin cfg0.N, (cfg0.win 8).flush t = true ∧ i ∈ ((cfg0.win 8).blk t).view.set := by
  have hi0 : (i 0).val < 65536 := (i 0).isLt
  have hi1 : (i 1).val < 512 := (i 1).isLt
  obtain ⟨t, ht⟩ := idx_onto ⟨(i 0).val / 2048, by omega⟩
  have q0 : win0_8.index t (0 : Fin 2) = (i 0).val / 2048 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 512 ≤ (i 1).val ∧ (i 1).val < win0_8.index t (1 : Fin 2) * 512 + 512; omega

/-- THE ARRAY after the run is the result array. -/
theorem final (c : Dev nD) : (dats m 0 c).arrAt 8 cfg0.N = result m c :=
  (dats m 0 c).arrAt_eq_of_cover 8 (result m c) (fun t _ => flushed_eq m c t) cover

/-- The kernel's run with its result named: every weakly fair execution terminates with the result array at `result` and the
    arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.RefRow.lean ====
/-
  The reference program, read as the mathematics of its rows.

  Its operations are read one at a time at a row `b` and a column (the generated read-at-an-index lemmas), in the order the
  reference computes them: the squared norms of a row and of a centre, their inner product, the radial activation spelt as
  a squared distance, the linear mix, the row's mean and the centred row, the variance, and the squashed normalised value.
  The result at `(b, w)` is `Cert.Rbf.rowDist` of row `b` of the inputs at `w`.
-/
import proofs.«163557_j70385924047526_2_alg».proof.Proof.Gen.ReferenceIdeal.Read
import proofs.«163557_j70385924047526_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The words the reference spells: two, 512 (the row length) and the stabiliser. -/
abbrev twoW : EReal := Ideal.ofBits .f32 0x40000000#32
abbrev nW : EReal := Ideal.ofBits .f32 0x44000000#32
abbrev eW : EReal := Ideal.ofBits .f32 0x3727C5AC#32

/-- Two indices of a rank-2 shape with the same coordinates are equal; likewise rank 1. -/
local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

variable (x0 : (⟨S65536x256, .f32⟩ : BufTy).Contents (Elt Ideal)) (x1 : (⟨S512x256, .f32⟩ : BufTy).Contents (Elt Ideal))
  (x2 : (⟨S512, .f32⟩ : BufTy).Contents (Elt Ideal)) (x3 : (⟨S512x512, .f32⟩ : BufTy).Contents (Elt Ideal))
  (x4 x5 x6 : (⟨S512, .f32⟩ : BufTy).Contents (Elt Ideal))

/-- The squared norm of input row `b`. -/
theorem sqx (b : Fin 65536) : val_main_v1 (F := Ideal) x0 (ix1 b) = ∑ k : Fin 256, x0 (ix2 b k) * x0 (ix2 b k) := by
  rw [val_main_v1_apply]
  have hz : (val_main_cst (F := Ideal)) (Shape.Idx.first h_S_) = 0 := Ideal.ofBits_zero_f32
  rw [hz, zero_add]
  refine Finset.sum_congr rfl fun k _ => ?_
  have e : idx_main_v1 (ix1 b) k = ix2 b k := by idx2
  rw [e]; rfl

/-- The squared norm of centre `g`. -/
theorem sqc (g : Fin 512) : val_main_v4 (F := Ideal) x1 (ix1 g) = ∑ k : Fin 256, x1 (ix2 g k) * x1 (ix2 g k) := by
  rw [val_main_v4_apply]
  have hz : (val_main_cst_0 (F := Ideal)) (Shape.Idx.first h_S_) = 0 := Ideal.ofBits_zero_f32
  rw [hz, zero_add]
  refine Finset.sum_congr rfl fun k _ => ?_
  have e : idx_main_v4 (ix1 g) k = ix2 g k := by idx2
  rw [e]; rfl

/-- The inner product of input row `b` and centre `g`. -/
theorem cross (b : Fin 65536) (g : Fin 512) :
    val_main_v5 (F := Ideal) x0 x1 (ix2 b g) = ∑ k : Fin 256, x0 (ix2 b k) * x1 (ix2 g k) := by
  rw [val_main_v5_apply]
  refine Finset.sum_congr rfl fun k _ => ?_
  have el : lidx_main_v5 (ix2 b g) k = ix2 b k := by idx2
  have er : ridx_main_v5 (ix2 b g) k = ix2 g k := by idx2
  rw [el, er]

/-- The radial activation of row `b` against centre `g`, spelt as a squared distance. -/
theorem act (b : Fin 65536) (g : Fin 512) :
    val_main_v18 (F := Ideal) x0 x1 x2 (ix2 b g)
      = Rbf.actDist twoW (fun k => x0 (ix2 b k)) (fun k => x1 (ix2 g k)) (x2 (ix1 g)) := by
  have e7 : val_main_v7 (F := Ideal) x0 (ix2 b g) = ∑ k : Fin 256, x0 (ix2 b k) * x0 (ix2 b k) := by
    rw [val_main_v7_apply, val_main_v2_apply]
    have e : idx_main_v2 (idx_main_v7 (ix2 b g)) = ix1 b := by idx1
    rw [e]; exact sqx x0 b
  have e8 : val_main_v8 (F := Ideal) x1 (ix2 b g) = ∑ k : Fin 256, x1 (ix2 g k) * x1 (ix2 g k) := by
    rw [val_main_v8_apply, val_main_v6_apply]
    have e : idx_main_v6 (idx_main_v8 (ix2 b g)) = ix1 g := by idx1
    rw [e]; exact sqc x1 g
  have e16 : val_main_v16 (F := Ideal) x2 (ix2 b g) = Ideal.exp (x2 (ix1 g)) := by
    rw [val_main_v16_apply, val_main_v15_apply]
    have e : idx_main_v15 (idx_main_v16 (ix2 b g)) = ix1 g := by idx1
    rw [e]; rfl
  have e10 : val_main_v10 (F := Ideal) (ix2 b g) = twoW := by rw [val_main_v10_apply]; rfl
  rw [val_main_v18_apply, val_main_v17_apply, val_main_v13_apply, val_main_v12_apply, val_main_v9_apply, val_main_v11_apply,
    e7, e8, e10, e16, cross]
  simp only [Ideal.hostUnary_exp_def, Ideal.mulf_def, Ideal.hostNegf_def, Ideal.negf_def, Ideal.subf_def, Ideal.addf_def]
  rfl

/-- The linear mix of row `b`'s activations at output `w`. -/
theorem mix (b : Fin 65536) (w : Fin 512) :
    val_main_v22 (F := Ideal) x0 x1 x2 x3 x4 (ix2 b w)
      = Rbf.mixed (fun g => Rbf.actDist twoW (fun k => x0 (ix2 b k)) (fun k => x1 (ix2 g k)) (x2 (ix1 g)))
          (fun w g => x3 (ix2 w g)) (fun w => x4 (ix1 w)) w := by
  have e21 : val_main_v21 (F := Ideal) x4 (ix2 b w) = x4 (ix1 w) := by
    rw [val_main_v21_apply, val_main_v20_apply]
    have e : idx_main_v20 (idx_main_v21 (ix2 b w)) = ix1 w := by idx1
    rw [e]
  have e19 : val_main_v19 (F := Ideal) x0 x1 x2 x3 (ix2 b w)
      = ∑ g : Fin 512, Rbf.actDist twoW (fun k => x0 (ix2 b k)) (fun k => x1 (ix2 g k)) (x2 (ix1 g)) * x3 (ix2 w g) := by
    rw [val_main_v19_apply]
    refine Finset.sum_congr rfl fun g _ => ?_
    have el : lidx_main_v19 (ix2 b w) g = ix2 b g := by idx2
    have er : ridx_main_v19 (ix2 b w) g = ix2 w g := by idx2
    rw [el, er, act]
  show val_main_v19 (F := Ideal) x0 x1 x2 x3 (ix2 b w) + val_main_v21 (F := Ideal) x4 (ix2 b w) = _
  rw [e19, e21]; rfl

/-- The mean of mixed row `b`, kept as a one-column array. -/
theorem mean (b : Fin 65536) (u : Fin 1) :
    val_main_v26 (F := Ideal) x0 x1 x2 x3 x4 (ix2 b u)
      = Ideal.div (∑ w : Fin 512, val_main_v22 (F := Ideal) x0 x1 x2 x3 x4 (ix2 b w)) nW := by
  have e25 : val_main_v25 (F := Ideal) (ix2 b u) = nW := by rw [val_main_v25_apply]; rfl
  have e24 : val_main_v24 (F := Ideal) x0 x1 x2 x3 x4 (ix2 b u) = ∑ w : Fin 512, val_main_v22 (F := Ideal) x0 x1 x2 x3 x4 (ix2 b w) := by
    rw [val_main_v24_apply]
    have e : idx_main_v24 (ix2 b u) = ix1 b := by idx1
    rw [e, val_main_v23_apply]
    have hz : (val_main_cst_2 (F := Ideal)) (Shape.Idx.first h_S_) = 0 := Ideal.ofBits_zero_f32
    rw [hz, zero_add]
    refine Finset.sum_congr rfl fun w _ => ?_
    have e' : idx_main_v23 (ix1 b) w = ix2 b w := by idx2
    rw [e']
  show Ideal.div (val_main_v24 (F := Ideal) x0 x1 x2 x3 x4 (ix2 b u)) (val_main_v25 (F := Ideal) (ix2 b u)) = _
  rw [e24, e25]

/-- Mixed row `b` minus its mean, at `w` (as the variance reads it). -/
theorem cent (b : Fin 65536) (w : Fin 512) :
    val_main_v28 (F := Ideal) x0 x1 x2 x3 x4 (ix2 b w)
      = Rbf.centred nW (fun v => val_main_v22 (F := Ideal) x0 x1 x2 x3 x4 (ix2 b v)) w := by
  show val_main_v22 (F := Ideal) x0 x1 x2 x3 x4 (ix2 b w) - val_main_v27 (F := Ideal) x0 x1 x2 x3 x4 (ix2 b w) = _
  rw [val_main_v27_apply]
  have e : idx_main_v27 (ix2 b w) = ix2 b (0 : Fin 1) := by idx2
  rw [e, mean]; rfl

/-- The same, as the normalisation reads it. -/
theorem cent' (b : Fin 65536) (w : Fin 512) :
    val_main_v35 (F := Ideal) x0 x1 x2 x3 x4 (ix2 b w)
      = Rbf.centred nW (fun v => val_main_v22 (F := Ideal) x0 x1 x2 x3 x4 (ix2 b v)) w := by
  show val_main_v22 (F := Ideal) x0 x1 x2 x3 x4 (ix2 b w) - val_main_v34 (F := Ideal) x0 x1 x2 x3 x4 (ix2 b w) = _
  rw [val_main_v34_apply]
  have e : idx_main_v34 (ix2 b w) = ix2 b (0 : Fin 1) := by idx2
  rw [e, mean]; rfl

/-- The variance of mixed row `b`, kept as a one-column array. -/
theorem var (b : Fin 65536) (u : Fin 1) :
    val_main_v33 (F := Ideal) x0 x1 x2 x3 x4 (ix2 b u)
      = Ideal.div (∑ w : Fin 512, val_main_v28 (F := Ideal) x0 x1 x2 x3 x4 (ix2 b w) * val_main_v28 (F := Ideal) x0 x1 x2 x3 x4 (ix2 b w)) nW := by
  have e32 : val_main_v32 (F := Ideal) (ix2 b u) = nW := by rw [val_main_v32_apply]; rfl
  have e31 : val_main_v31 (F := Ideal) x0 x1 x2 x3 x4 (ix2 b u)
      = ∑ w : Fin 512, val_main_v28 (F := Ideal) x0 x1 x2 x3 x4 (ix2 b w) * val_main_v28 (F := Ideal) x0 x1 x2 x3 x4 (ix2 b w) := by
    rw [val_main_v31_apply]
    have e : idx_main_v31 (ix2 b u) = ix1 b := by idx1
    rw [e, val_main_v30_apply]
    have hz : (val_main_cst_4 (F := Ideal)) (Shape.Idx.first h_S_) = 0 := Ideal.ofBits_zero_f32
    rw [hz, zero_add]
    refine Finset.sum_congr rfl fun w _ => ?_
    have e' : idx_main_v30 (ix1 b) w = ix2 b w := by idx2
    rw [e']; rfl
  show Ideal.div (val_main_v31 (F := Ideal) x0 x1 x2 x3 x4 (ix2 b u)) (val_main_v32 (F := Ideal) (ix2 b u)) = _
  rw [e31, e32]

/-- THE REFERENCE'S RESULT at row `b` and column `w`: the row of `Cert.Rbf.rowDist` of input row `b`. -/
theorem result_apply (b : Fin 65536) (w : Fin 512) :
    val_main_v47 (F := Ideal) x0 x1 x2 x3 x4 x5 x6 (ix2 b w)
      = Rbf.rowDist twoW nW eW (fun k => x0 (ix2 b k)) (fun g k => x1 (ix2 g k)) (fun g => x2 (ix1 g))
          (fun w g => x3 (ix2 w g)) (fun w => x4 (ix1 w)) (fun w => x5 (ix1 w)) (fun w => x6 (ix1 w)) w := by
  have e39 : val_main_v39 (F := Ideal) x0 x1 x2 x3 x4 (ix2 b w)
      = Ideal.rsqrt (val_main_v33 (F := Ideal) x0 x1 x2 x3 x4 (ix2 b (0 : Fin 1)) + eW) := by
    rw [val_main_v39_apply]
    have e : idx_main_v39 (ix2 b w) = ix2 b (0 : Fin 1) := by idx2
    rw [e]
    have e36 : val_main_v36 (F := Ideal) (ix2 b (0 : Fin 1)) = eW := by rw [val_main_v36_apply]; rfl
    rw [val_main_v38_apply, val_main_v37_apply, e36]
    simp only [Ideal.hostUnary_rsqrt_def, Ideal.addf_def]
  have e42 : val_main_v42 (F := Ideal) x5 (ix2 b w) = x5 (ix1 w) := by
    rw [val_main_v42_apply, val_main_v41_apply]
    have e : idx_main_v41 (idx_main_v42 (ix2 b w)) = ix1 w := by idx1
    rw [e]
  have e45 : val_main_v45 (F := Ideal) x6 (ix2 b w) = x6 (ix1 w) := by
    rw [val_main_v45_apply, val_main_v44_apply]
    have e : idx_main_v44 (idx_main_v45 (ix2 b w)) = ix1 w := by idx1
    rw [e]
  have hu : (fun v => val_main_v22 (F := Ideal) x0 x1 x2 x3 x4 (ix2 b v))
      = Rbf.mixed (fun g => Rbf.actDist twoW (fun k => x0 (ix2 b k)) (fun k => x1 (ix2 g k)) (x2 (ix1 g)))
          (fun w g => x3 (ix2 w g)) (fun w => x4 (ix1 w)) := funext fun v => mix x0 x1 x2 x3 x4 b v
  rw [val_main_v47_apply, val_main_v46_apply, val_main_v43_apply, val_main_v40_apply, e39, e42, e45, cent', var]
  simp only [cent, Ideal.hostUnary_tanh_def, Ideal.mulf_def, Ideal.addf_def]
  rw [hu]; rfl

end Cert.ReferenceIdeal.RefValue

end
-- ==== Proof.Finite.lean ====
/-
  What the precondition says of the three arrays the law needs.

  The precondition is the conjunction, over the seven arguments, of "every entry's absolute value is below +∞". Over the
  extended reals an absolute value `max x (-x)` is below `+∞` exactly when `x` is neither infinity, that is, when `x` is
  a real number. Read here for the inputs, the centres and the log-scales.
-/
import proofs.«163557_j70385924047526_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Decode

open Cert.Pre_finite_inputs Idealize.ShloMosaic

variable [Facts]
open Facts

instance : Subsingleton S_.Idx := ⟨fun a b => funext fun d => d.elim0⟩

/-- An extended real whose absolute value is below `+∞` is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exfalso; simp [Ideal.cmp] at h
  | coe r => exact ⟨r, rfl⟩
  | top => exfalso; simp [Ideal.cmp] at h

/-- Under the precondition every entry of the inputs, of the centres and of the log-scales is a real number. -/
theorem finite_of_pre (a0 : FVec Ideal S65536x256 .f32) (a1 : FVec Ideal S512x256 .f32) (a2 : FVec Ideal S512 .f32)
    (a3 : FVec Ideal S512x512 .f32) (a4 a5 a6 : FVec Ideal S512 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn, fn_part1, andi] at h0
  simp only [IntOp.andi_eq_one] at h0
  obtain ⟨⟨⟨⟨⟨⟨h3, h7⟩, h12⟩, -⟩, -⟩, -⟩, -⟩ := h0
  refine ⟨fun i => ?_, fun i => ?_, fun i => ?_⟩
  · exact real_of_abs_lt_top (a0 i) (Host.reduce_andi_all _ _ _ _ _ h3 i)
  · exact real_of_abs_lt_top (a1 i) (Host.reduce_andi_all _ _ _ _ _ h7 i)
  · exact real_of_abs_lt_top (a2 i) (Host.reduce_andi_all _ _ _ _ _ h12 i)

end Cert.Pre_finite_inputs.Decode

end
-- ==== Proof.lean ====
/-
  The kernel and its reference compute the same layer: a radial-basis expansion of each input row against 512 centres, a
  linear mix, a layer normalisation and a hyperbolic tangent.

  The reference forms the squared distance `‖x‖² + ‖c‖² - 2⟨x, c⟩`, negates it, scales it by `exp` of the centre's log-scale
  and exponentiates. The kernel is given the doubled centres, the centres' squared norms and the exponentiated log-scales
  as prepared operands, forms `⟨x, 2c⟩ - ‖x‖² - ‖c‖²`, scales it, clamps the product at zero from above and exponentiates.
  On finite inputs, centres and log-scales both arguments of the exponential are the real `-(Σ (x - c)²) · exp(ls) ≤ 0`, so
  the clamp is the identity there (`Cert.Rbf.rowClamp_eq_rowDist`); this is the one place the precondition is used.
  After the activation the two programs apply the same operations: a product with the mixing matrix plus a bias, the
  row's mean and variance as sums divided by 512, the reciprocal square root of the variance plus the same stabiliser,
  the scale, the shift and `tanh`. A change of float format is the identity over the extended reals, and the kernel's
  matrix products into a zero accumulator and its lane sums are the reference's contractions and sums.

  The kernel's grid point `t` writes rows `2048·t … 2048·t + 2047` of the result from the same rows of the inputs; the 32
  blocks fill the array (`Cert.KernelIdeal.ArrayValue`). The reference's operations are read one at a time at an index
  (`Cert.ReferenceIdeal.RefValue`). The idealisation rewrote no operation, so there is nothing to preserve beyond the
  program's own text.
-/
import proofs.«163557_j70385924047526_2_alg».proof.Defs
import proofs.«163557_j70385924047526_2_alg».proof.Proof.Gen.Kernel
import proofs.«163557_j70385924047526_2_alg».proof.Proof.Gen.Kernel.Skeleton
import proofs.«163557_j70385924047526_2_alg».proof.Proof.Gen.Kernel.Launch
import proofs.«163557_j70385924047526_2_alg».proof.Proof.Gen.Kernel.Points
import proofs.«163557_j70385924047526_2_alg».proof.Proof.Gen.Kernel.Frame
import proofs.«163557_j70385924047526_2_alg».proof.Proof.Gen.KernelIdeal
import proofs.«163557_j70385924047526_2_alg».proof.Proof.Gen.KernelIdeal.Skeleton
import proofs.«163557_j70385924047526_2_alg».proof.Proof.Gen.KernelIdeal.Launch
import proofs.«163557_j70385924047526_2_alg».proof.Proof.Gen.KernelIdeal.Points
import proofs.«163557_j70385924047526_2_alg».proof.Proof.Gen.KernelIdeal.Frame
import proofs.«163557_j70385924047526_2_alg».proof.Proof.Gen.ReferenceIdeal
import proofs.«163557_j70385924047526_2_alg».proof.Proof.Gen.Pre_finite_inputs
import proofs.«163557_j70385924047526_2_alg».proof.Proof.Gen.KernelIdeal.Value
import proofs.«163557_j70385924047526_2_alg».proof.Proof.Gen.ReferenceIdeal.Run
import proofs.«163557_j70385924047526_2_alg».proof.Proof.Gen.ReferenceIdeal.Read
import proofs.«163557_j70385924047526_2_alg».proof.Proof.Spec
import proofs.«163557_j70385924047526_2_alg».proof.Proof.KernelArray
import proofs.«163557_j70385924047526_2_alg».proof.Proof.RefRow
import proofs.«163557_j70385924047526_2_alg».proof.Proof.Finite
import Idealize.ShloMosaic.Adequacy
import Idealize.ShloMosaic.Init

noncomputable section

namespace Cert.Proof

open Idealize.ShloMosaic Idealize.ShloMosaic.TcCoe Idealize.SL.Sem

/-- The word `0x40000000` denotes the real number two. -/
theorem two_word : Ideal.ofBits .f32 0x40000000#32 = ((2 : ℝ) : EReal) := by
  simp [Ideal.ofBits, Ideal.ieee, -EReal.coe_mul]; norm_num

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both programs end with the same result array: row `b` of the kernel's is
    the clamped spelling of the row (`Cert.Rbf.rowClamp`), row `b` of the reference's the squared-distance spelling
    (`Cert.Rbf.rowDist`), and on the finite entries the precondition gives the two agree. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Pre_finite_inputs.Decode.finite_of_pre _ _ _ _ _ _ _ (hpre c)
  rw [Cert.ReferenceIdeal.Read.val_main_v47_eq, (hagree c).1, (hagree c).2.1, (hagree c).2.2.1, (hagree c).2.2.2.1,
    (hagree c).2.2.2.2.1, (hagree c).2.2.2.2.2.1, (hagree c).2.2.2.2.2.2]
  funext i
  obtain ⟨b, w, rfl⟩ : ∃ (b : Fin 65536) (w : Fin 512), i = ValueIdx.ix2 b w :=
    ⟨i 0, i 1, ValueIdx.eq_ix2 (n0 := 65536) (n1 := 512) i⟩
  rw [Cert.ReferenceIdeal.RefValue.result_apply]
  show _ = Cert.KernelIdeal.ArrayValue.outRow _ _ _ _ _ _ _ b w
  unfold Cert.KernelIdeal.ArrayValue.outRow
  exact (congrFun (Cert.Rbf.rowClamp_eq_rowDist _ _ _ _ Ideal.ofBits_zero_f32 two_word _ _ _ _ _ _ _
    (fun k => f0 _) (fun g k => f1 _) (fun g => f2 _)) w).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
